-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x64 : Shape := ⟨2, ![256, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : FVec F S64x32 .f32) (main_arg5 : FVec F S32 .f32) (main_arg6 : FVec F S32x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  main_v33

def fn {F : FTy → Type} [FloatOps F] (main_arg0 : FVec F S16384x256 .f32) (main_arg1 : FVec F S256x64 .f32) (main_arg2 : FVec F S64x64 .f32) (main_arg3 : FVec F S64 .f32) (main_arg4 : FVec F S64x32 .f32) (main_arg5 : FVec F S32 .f32) (main_arg6 : FVec F S32x1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16384x256 : Shape := ⟨2, ![16384, 256]⟩
abbrev S256x64 : Shape := ⟨2, ![256, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩
abbrev S512x64 : Shape := ⟨2, ![512, 64]⟩
abbrev S64x1 : Shape := ⟨2, ![64, 1]⟩
abbrev S1x16384 : Shape := ⟨2, ![1, 16384]⟩
abbrev S4096x256 : Shape := ⟨2, ![4096, 256]⟩
abbrev S1x4096 : Shape := ⟨2, ![1, 4096]⟩
abbrev S32x64 : Shape := ⟨2, ![32, 64]⟩
abbrev S64x4096 : Shape := ⟨2, ![64, 4096]⟩
abbrev S32x4096 : Shape := ⟨2, ![32, 4096]⟩
abbrev S16384x1 : Shape := ⟨2, ![16384, 1]⟩

abbrev nBuf : Space → Nat
  | .hbm => 31
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S512x64, .f32⟩
  | .hbm, ⟨9, _⟩ => ⟨S_, .i32⟩
  | .hbm, ⟨10, _⟩ => ⟨S_, .i32⟩
  | .hbm, ⟨11, _⟩ => ⟨S512x64, .f32⟩
  | .hbm, ⟨12, _⟩ => ⟨S_, .i32⟩
  | .hbm, ⟨13, _⟩ => ⟨S_, .i32⟩
  | .hbm, ⟨14, _⟩ => ⟨S512x64, .f32⟩
  | .hbm, ⟨15, _⟩ => ⟨S64x1, .f32⟩
  | .hbm, ⟨16, _⟩ => ⟨S_, .i32⟩
  | .hbm, ⟨17, _⟩ => ⟨S_, .i32⟩
  | .hbm, ⟨18, _⟩ => ⟨S512x64, .f32⟩
  | .hbm, ⟨19, _⟩ => ⟨S_, .i32⟩
  | .hbm, ⟨20, _⟩ => ⟨S_, .i32⟩
  | .hbm, ⟨21, _⟩ => ⟨S512x64, .f32⟩
  | .hbm, ⟨22, _⟩ => ⟨S32x1, .f32⟩
  | .hbm, ⟨23, _⟩ => ⟨S_, .i32⟩
  | .hbm, ⟨24, _⟩ => ⟨S_, .i32⟩
  | .hbm, ⟨25, _⟩ => ⟨S512x64, .f32⟩
  | .hbm, ⟨26, _⟩ => ⟨S_, .i32⟩
  | .hbm, ⟨27, _⟩ => ⟨S_, .i32⟩
  | .hbm, ⟨28, _⟩ => ⟨S512x64, .f32⟩
  | .hbm, ⟨29, _⟩ => ⟨S1x16384, .f32⟩
  | .hbm, ⟨30, _⟩ => ⟨S16384x1, .f32⟩
  | .local _ .vmem, ⟨0, _⟩ => ⟨S4096x256, .f32⟩
  | .local _ .vmem, ⟨1, _⟩ => ⟨S4096x256, .f32⟩
  | .local _ .vmem, ⟨2, _⟩ => ⟨S512x64, .f32⟩
  | .local _ .vmem, ⟨3, _⟩ => ⟨S1x4096, .f32⟩
  | .local _ .vmem, ⟨4, _⟩ => ⟨S1x4096, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_c_0 : Ref sig .tc := ⟨.hbm, 10, rfl⟩
abbrev main_v1 : Ref sig .tc := ⟨.hbm, 11, rfl⟩
abbrev main_c_1 : Ref sig .tc := ⟨.hbm, 12, rfl⟩
abbrev main_c_2 : Ref sig .tc := ⟨.hbm, 13, rfl⟩
abbrev main_v2 : Ref sig .tc := ⟨.hbm, 14, rfl⟩
abbrev main_v3 : Ref sig .tc := ⟨.hbm, 15, rfl⟩
abbrev main_c_3 : Ref sig .tc := ⟨.hbm, 16, rfl⟩
abbrev main_c_4 : Ref sig .tc := ⟨.hbm, 17, rfl⟩
abbrev main_v4 : Ref sig .tc := ⟨.hbm, 18, rfl⟩
abbrev main_c_5 : Ref sig .tc := ⟨.hbm, 19, rfl⟩
abbrev main_c_6 : Ref sig .tc := ⟨.hbm, 20, rfl⟩
abbrev main_v5 : Ref sig .tc := ⟨.hbm, 21, rfl⟩
abbrev main_v6 : Ref sig .tc := ⟨.hbm, 22, rfl⟩
abbrev main_c_7 : Ref sig .tc := ⟨.hbm, 23, rfl⟩
abbrev main_c_8 : Ref sig .tc := ⟨.hbm, 24, rfl⟩
abbrev main_v7 : Ref sig .tc := ⟨.hbm, 25, rfl⟩
abbrev main_c_9 : Ref sig .tc := ⟨.hbm, 26, rfl⟩
abbrev main_c_10 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512x64 : S_.BroadcastsInDim S512x64 (![] : Fin 0 → Fin S512x64.rank)
  updateFits_S512x64_S256x64 : S512x64.Slices (fun _ => 0) S256x64
  h_S_ : 0 < S_.numel
  updateFits_S512x64_S64x64 : S512x64.Slices (fun _ => 0) S64x64
  shapeCasts_S64_S64x1 : S64.ShapeCasts S64x1
  updateFits_S512x64_S64x1 : S512x64.Slices (fun _ => 0) S64x1
  updateFits_S512x64_S64x32 : S512x64.Slices (fun _ => 0) S64x32
  shapeCasts_S32_S32x1 : S32.ShapeCasts S32x1
  updateFits_S512x64_S32x1 : S512x64.Slices (fun _ => 0) S32x1
  inb_S4096x256_S4096x256_0_0 : ∀ a, (![0, 0] : Fin 2 → Nat) a + S4096x256.size a ≤ S4096x256.size a
  h_S4096x256 : 0 < S4096x256.numel
  inb_S512x64_S256x64_0_0 : ∀ a, (![0, 0] : Fin 2 → Nat) a + S256x64.size a ≤ S512x64.size a
  h_S256x64 : 0 < S256x64.numel
  shapeCasts_S256x64_S256x64 : S256x64.ShapeCasts S256x64
  inb_S512x64_S64x64_256_0 : ∀ a, (![256, 0] : Fin 2 → Nat) a + S64x64.size a ≤ S512x64.size a
  h_S64x64 : 0 < S64x64.numel
  shapeCasts_S64x64_S64x64 : S64x64.ShapeCasts S64x64
  inb_S512x64_S64x1_320_0 : ∀ a, (![320, 0] : Fin 2 → Nat) a + S64x1.size a ≤ S512x64.size a
  h_S64x1 : 0 < S64x1.numel
  shapeCasts_S64x1_S64x1 : S64x1.ShapeCasts S64x1
  inb_S512x64_S64x32_384_0 : ∀ a, (![384, 0] : Fin 2 → Nat) a + S64x32.size a ≤ S512x64.size a
  h_S64x32 : 0 < S64x32.numel
  shapeCasts_S64x32_S64x32 : S64x32.ShapeCasts S64x32
  inb_S512x64_S32x1_448_0 : ∀ a, (![448, 0] : Fin 2 → Nat) a + S32x1.size a ≤ S512x64.size a
  h_S32x1 : 0 < S32x1.numel
  shapeCasts_S32x1_S32x1 : S32x1.ShapeCasts S32x1
  inb_S512x64_S32x64_480_0 : ∀ a, (![480, 0] : Fin 2 → Nat) a + S32x64.size a ≤ S512x64.size a
  h_S32x64 : 0 < S32x64.numel
  shapeCasts_S32x64_S32x64 : S32x64.ShapeCasts S32x64
  broadcasts_S64x1_S64x4096 : S64x1.Broadcasts S64x4096
  broadcasts_S32x1_S32x4096 : S32x1.Broadcasts S32x4096
  slices_S64x4096_o0_0_S1x4096 : S64x4096.Slices ![0, 0] S1x4096
  inb_S1x4096_S1x4096_0_0 : ∀ a, (![0, 0] : Fin 2 → Nat) a + S1x4096.size a ≤ S1x4096.size a
  h_S1x4096 : 0 < S1x4096.numel
  shapeCasts_S1x16384_S16384x1 : S1x16384.ShapeCasts S16384x1
  dot_S256x64_S4096x256_S64x4096_0_1_1_0_n_n_wf : DotDims.WF S256x64 S4096x256 S64x4096 [0] [1] [1] [0] [] []
  dot_S64x64_S64x4096_S64x4096_0_0_1_1_n_n_wf : DotDims.WF S64x64 S64x4096 S64x4096 [0] [0] [1] [1] [] []
  dot_S64x32_S64x4096_S32x4096_0_0_1_1_n_n_wf : DotDims.WF S64x32 S64x4096 S32x4096 [0] [0] [1] [1] [] []
  dot_S32x64_S32x4096_S64x4096_0_0_1_1_n_n_wf : DotDims.WF S32x64 S32x4096 S64x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x16384.size a
  hwx0_2 : ∀ i : grid0.Coords, EltTy.bits .f32 = 32 ∨ (Rect.block (s := S1x16384) S1x4096.size (cc0_transform_2 i) (hinb0_2 i)).WholeWords (EltTy.packing .f32)

variable [Facts₀]

def dot_S256x64_S4096x256_S64x4096_0_1_1_0_n_n : DotDims S256x64 S4096x256 S64x4096 where
  lhsContracting := [0]
  rhsContracting := [1]
  lhsNonContracting := [1]
  rhsNonContracting := [0]
  lhsBatch := []
  rhsBatch := []
  wf := dot_S256x64_S4096x256_S64x4096_0_1_1_0_n_n_wf
def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S64x32_S64x4096_S32x4096_0_0_1_1_n_n : DotDims S64x32 S64x4096 S32x4096 where
  lhsContracting := [0]
  rhsContracting := [0]
  lhsNonContracting := [1]
  rhsNonContracting := [1]
  lhsBatch := []
  rhsBatch := []
  wf := dot_S64x32_S64x4096_S32x4096_0_0_1_1_n_n_wf
def dot_S32x64_S32x4096_S64x4096_0_0_1_1_n_n : DotDims S32x64 S32x4096 S64x4096 where
  lhsContracting := [0]
  rhsContracting := [0]
  lhsNonContracting := [1]
  rhsNonContracting := [1]
  lhsBatch := []
  rhsBatch := []
  wf := dot_S32x64_S32x4096_S64x4096_0_0_1_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x64 : Shape := ⟨2, ![256, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S16384x64 : Shape := ⟨2, ![16384, 64]⟩
abbrev S_ : Shape := ⟨0, ![]⟩
abbrev S1x64 : Shape := ⟨2, ![1, 64]⟩
abbrev S16384x32 : Shape := ⟨2, ![16384, 32]⟩
abbrev S1x32 : Shape := ⟨2, ![1, 32]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x32, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S_, .f32⟩
  | .hbm, ⟨23, _⟩ => ⟨S16384x32, .f32⟩
  | .hbm, ⟨24, _⟩ => ⟨S16384x32, .f32⟩
  | .hbm, ⟨25, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_cst : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call2_cst : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  dot_S16384x256_S256x64_S16384x64_1_0_0_1_n_n_wf : DotDims.WF S16384x256 S256x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.LibDotTN.lean ====
/-
  A matrix product whose LEFT operand is read transposed, read at an index, on the extended reals.

  For dimension numbers that contract the left operand's FIRST axis against the right operand's SECOND
  axis, with no batch axes (the transpose of a `K×M` matrix times the transpose of an `N×K` matrix),
  entry `(p, c)` of the product is `Σ_{q < K} l[q, p] · r[c, q]`: the result's row index runs over the
  left operand's columns, its column index over the right operand's rows, and no transpose is ever
  formed. The library states a product as a sum over the contraction shape's multi-indices; here that
  sum is re-indexed by the one contracted coordinate, once, for every record of this form and every
  extent.
-/
import Idealize.ShloMosaic.PureOps.Ideal.Laws
import Idealize.ShloMosaic.Lib.ValueIdx

noncomputable section

open scoped BigOperators

namespace Cert.DotTN

open Idealize.ShloMosaic Idealize.ShloMosaic.ValueIdx

variable {M K N : Nat} (d : DotDims ⟨2, ![K, M]⟩ ⟨2, ![N, K]⟩ ⟨2, ![M, N]⟩)

/-- The dimension numbers of `lᵀ · rᵀ`: contract left axis 0 with right axis 1, keep left axis 1 then
    right axis 0, no batch axes. -/
structure IsTN : Prop where
  lc : d.lhsContracting = [0]
  rc : d.rhsContracting = [1]
  ln : d.lhsNonContracting = [1]
  rn : d.rhsNonContracting = [0]
  lb : d.lhsBatch = []
  rb : d.rhsBatch = []

variable {d}

/-- The contraction shape has one axis. -/
theorem contr_rank (h : IsTN d) : d.contr.rank = 1 := by rw [d.rank_contr, h.lc]; rfl

/-- That axis has the shared extent `K`. -/
theorem contr_size (h : IsTN d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand's COLUMN is the result's row. -/
theorem lhs_col (h : IsTN d) (j : (⟨2, ![M, N]⟩ : Shape).Idx) (k : d.contr.Idx) : (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsTN d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate: the first
    coordinate of the left operand, the second of the right. -/
theorem sum_contr (h : IsTN d) (l : (⟨2, ![K, M]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 q (j 0)) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 q (j 0) := funext fun a => Fin.ext (by
    match a with
    | ⟨0, _⟩ => exact (d.lhsIdx_val_of_single h.lc j _).trans hq
    | ⟨1, _⟩ => exact lhs_col h j _)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` of this form into a zero accumulator, at entry `(p, c)`. -/
theorem matmul_zero_apply (h : IsTN d) (prec : Option ContractPrecision) {φ₁ φ₂ : FTy}
    (l : FVec Ideal ⟨2, ![K, M]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 q p) * r (ix2 c q) :=
  (Ideal.matmul_constant_zero_apply d prec l r (ix2 p c)).trans (sum_contr h l r (ix2 p c))

/-- The host's `dot_general` of this form, at entry `(p, c)`. -/
theorem dotGeneral_apply (h : IsTN d) (prec : Option ContractPrecision) {φ₁ φ₂ : FTy}
    (l : FVec Ideal ⟨2, ![K, M]⟩ φ₁) (r : FVec Ideal ⟨2, ![N, K]⟩ φ₂) (p : Fin M) (c : Fin N) :
    Host.dotGeneral d prec l r (ix2 p c) = ∑ q : Fin K, l (ix2 q p) * r (ix2 c q) :=
  (Ideal.dotGeneral_apply d prec .single l r (ix2 p c)).trans (sum_contr h l r (ix2 p c))

end Cert.DotTN

end
-- ==== Proof.LibDotFirstAxes.lean ====
/-
  A matrix product that contracts the FIRST axis of both operands, read at an index, on the extended reals.

  For dimension numbers that contract the left operand's first axis against the right operand's first
  axis, with no batch axes (the transpose of a `K×M` matrix times a `K×N` matrix), entry `(p, c)` of the
  product is `Σ_{q < K} l[q, p] · r[q, c]`: the result's row index runs over the left operand's columns,
  its column index over the right operand's columns, and no transpose is ever formed. The library states
  a product as a sum over the contraction shape's multi-indices; here that sum is re-indexed by the one
  contracted coordinate, once, for every record of this form and every extent.
-/
import Idealize.ShloMosaic.PureOps.Ideal.Laws
import Idealize.ShloMosaic.Lib.ValueIdx

noncomputable section

open scoped BigOperators

namespace Cert.DotFirstAxes

open Idealize.ShloMosaic Idealize.ShloMosaic.ValueIdx

variable {M K N : Nat} (d : DotDims ⟨2, ![K, M]⟩ ⟨2, ![K, N]⟩ ⟨2, ![M, N]⟩)

/-- The dimension numbers of `lᵀ · r`: contract axis 0 of both operands, keep the left operand's axis 1
    then the right operand's axis 1, no batch axes. -/
structure IsFirstAxes : Prop where
  lc : d.lhsContracting = [0]
  rc : d.rhsContracting = [0]
  ln : d.lhsNonContracting = [1]
  rn : d.rhsNonContracting = [1]
  lb : d.lhsBatch = []
  rb : d.rhsBatch = []

variable {d}

/-- The contraction shape has one axis. -/
theorem contr_rank (h : IsFirstAxes d) : d.contr.rank = 1 := by rw [d.rank_contr, h.lc]; rfl

/-- That axis has the shared extent `K`. -/
theorem contr_size (h : IsFirstAxes d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand's COLUMN is the result's row. -/
theorem lhs_col (h : IsFirstAxes d) (j : (⟨2, ![M, N]⟩ : Shape).Idx) (k : d.contr.Idx) : (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's COLUMN is the result's column. -/
theorem rhs_col (h : IsFirstAxes d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate, the first
    coordinate of both operands. -/
theorem sum_contr (h : IsFirstAxes d) (l : (⟨2, ![K, M]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 q (j 0)) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 q (j 0) := funext fun a => Fin.ext (by
    match a with
    | ⟨0, _⟩ => exact (d.lhsIdx_val_of_single h.lc j _).trans hq
    | ⟨1, _⟩ => exact lhs_col h j _)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` of this form into a zero accumulator, at entry `(p, c)`. -/
theorem matmul_zero_apply (h : IsFirstAxes d) (prec : Option ContractPrecision) {φ₁ φ₂ : FTy}
    (l : FVec Ideal ⟨2, ![K, M]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 q p) * r (ix2 q c) :=
  (Ideal.matmul_constant_zero_apply d prec l r (ix2 p c)).trans (sum_contr h l r (ix2 p c))

/-- The host's `dot_general` of this form, at entry `(p, c)`. -/
theorem dotGeneral_apply (h : IsFirstAxes d) (prec : Option ContractPrecision) {φ₁ φ₂ : FTy}
    (l : FVec Ideal ⟨2, ![K, M]⟩ φ₁) (r : FVec Ideal ⟨2, ![K, N]⟩ φ₂) (p : Fin M) (c : Fin N) :
    Host.dotGeneral d prec l r (ix2 p c) = ∑ q : Fin K, l (ix2 q p) * r (ix2 q c) :=
  (Ideal.dotGeneral_apply d prec .single l r (ix2 p c)).trans (sum_contr h l r (ix2 p c))

end Cert.DotFirstAxes

end
-- ==== Proof.MlpRow.lean ====
/-
  The network on ONE input row, over the extended reals.

  A row `x` of 256 numbers goes through an embedding without bias and two biased layers, each followed by
  `max(·, 0)`, and a last layer with one output and no bias:
    e[i] = max(Σ_q x[q]·We[q,i], 0),  g[j] = max(Σ_i e[i]·W1[i,j] + b1[j], 0),
    h[k] = max(Σ_j g[j]·W2[j,k] + b2[k], 0),  out = Σ_k h[k]·w3[k].
  Both programs compute this number for every row of the batch; neither side of the comparison needs any
  law beyond the commutativity of the product, which holds on every extended real, so nothing here asks
  the entries to be finite. The zero is kept as the float word both programs print.
-/
import Idealize.ShloMosaic.PureOps.Ideal

noncomputable section

open scoped BigOperators

namespace Cert.Mlp

open Idealize.ShloMosaic

/-- The zero both programs compare against, as the extended real its float word denotes. -/
abbrev zeroWord : EReal := Ideal.ofBits .f32 0x00000000#32

/-- The embedding layer's unit `i`. -/
def embed (x : Fin 256 → EReal) (We : Fin 256 → Fin 64 → EReal) (i : Fin 64) : EReal :=
  max (∑ q : Fin 256, x q * We q i) zeroWord

/-- The first hidden layer's unit `j`. -/
def hidden1 (x : Fin 256 → EReal) (We : Fin 256 → Fin 64 → EReal) (W1 : Fin 64 → Fin 64 → EReal) (b1 : Fin 64 → EReal)
    (j : Fin 64) : EReal :=
  max ((∑ i : Fin 64, embed x We i * W1 i j) + b1 j) zeroWord

/-- The second hidden layer's unit `k`. -/
def hidden2 (x : Fin 256 → EReal) (We : Fin 256 → Fin 64 → EReal) (W1 : Fin 64 → Fin 64 → EReal) (b1 : Fin 64 → EReal)
    (W2 : Fin 64 → Fin 32 → EReal) (b2 : Fin 32 → EReal) (k : Fin 32) : EReal :=
  max ((∑ j : Fin 64, hidden1 x We W1 b1 j * W2 j k) + b2 k) zeroWord

/-- The network's one output for the row. -/
def mlpRow (x : Fin 256 → EReal) (We : Fin 256 → Fin 64 → EReal) (W1 : Fin 64 → Fin 64 → EReal) (b1 : Fin 64 → EReal)
    (W2 : Fin 64 → Fin 32 → EReal) (b2 : Fin 32 → EReal) (w3 : Fin 32 → EReal) : EReal :=
  ∑ k : Fin 32, hidden2 x We W1 b1 W2 b2 k * w3 k

end Cert.Mlp

end
-- ==== Proof.KernelRow.lean ====
/-
  The kernel body's stored value, one entry at a time.

  The body works on the TRANSPOSED activations: every layer's result is laid out units × batch, so a
  column `p` of each intermediate array is the network's state for the block's row `p`. The embedding is
  the product contracting the weights' first axis against the input block's second axis; the later layers
  contract the first axis of the weights against the first axis of the previous activation. Each bias is
  loaded as a column and broadcast across the batch axis; the last weight is padded to 64 output units of
  which only unit 0 is stored. Read at column `p`, each layer is the one-row network's layer with the two
  factors of every product in the other order, so the stored entry `(0, p)` is the network's output for
  row `p` of the input block.
-/
import proofs.«155400_g9534827397533_cont_9to1c4b_304_24_alg».proof.Proof.Gen.KernelIdeal.Skeleton
import proofs.«155400_g9534827397533_cont_9to1c4b_304_24_alg».proof.Proof.LibDotTN
import proofs.«155400_g9534827397533_cont_9to1c4b_304_24_alg».proof.Proof.LibDotFirstAxes
import proofs.«155400_g9534827397533_cont_9to1c4b_304_24_alg».proof.Proof.MlpRow
import Idealize.ShloMosaic.Lib.Pipeline.Value
import Idealize.ShloMosaic.Lib.ValueIdx

noncomputable section

open scoped BigOperators

namespace Cert.KernelIdeal.Row

open Idealize.ShloMosaic Idealize.ShloMosaic.ValueIdx Cert.KernelIdeal Cert.KernelIdeal.Gen Cert.Mlp

/-! ## The four products' dimension numbers -/

theorem dims_embed : Cert.DotTN.IsTN dot_S256x64_S4096x256_S64x4096_0_1_1_0_n_n := ⟨rfl, rfl, rfl, rfl, rfl, rfl⟩
theorem dims_hidden1 : Cert.DotFirstAxes.IsFirstAxes dot_S64x64_S64x4096_S64x4096_0_0_1_1_n_n := ⟨rfl, rfl, rfl, rfl, rfl, rfl⟩
theorem dims_hidden2 : Cert.DotFirstAxes.IsFirstAxes dot_S64x32_S64x4096_S32x4096_0_0_1_1_n_n := ⟨rfl, rfl, rfl, rfl, rfl, rfl⟩
theorem dims_out : Cert.DotFirstAxes.IsFirstAxes dot_S32x64_S32x4096_S64x4096_0_0_1_1_n_n := ⟨rfl, rfl, rfl, rfl, rfl, rfl⟩

/-! ## The body's intermediate arrays, named -/

/-- The embedding's activations, units × batch. -/
def act0 (v0 : FVec Ideal S4096x256 .f32) (v1 : FVec Ideal S256x64 .f32) : FVec Ideal S64x4096 .f32 :=
  maximumf (matmul dot_S256x64_S4096x256_S64x4096_0_1_1_0_n_n none (shapeCast S256x64 v1 shapeCasts_S256x64_S256x64 : FVec Ideal S256x64 .f32) v0
      (constant S64x4096 .f32 0x00000000#32))
    (broadcast S64x4096 (Scalar.ofBits .f32 0x00000000#32))

/-- The first hidden layer's activations, units × batch. -/
def act1 (v0 : FVec Ideal S4096x256 .f32) (v1 : FVec Ideal S256x64 .f32) (v3 : FVec Ideal S64x64 .f32) (v5 : FVec Ideal S64x1 .f32) :
    FVec Ideal S64x4096 .f32 :=
  maximumf (addf (matmul dot_S64x64_S64x4096_S64x4096_0_0_1_1_n_n none (shapeCast S64x64 v3 shapeCasts_S64x64_S64x64 : FVec Ideal S64x64 .f32) (act0 v0 v1)
        (constant S64x4096 .f32 0x00000000#32))
      (broadcastTo S64x4096 (shapeCast S64x1 v5 shapeCasts_S64x1_S64x1 : FVec Ideal S64x1 .f32) broadcasts_S64x1_S64x4096))
    (broadcast S64x4096 (Scalar.ofBits .f32 0x00000000#32))

/-- The second hidden layer's activations, units × batch. -/
def act2 (v0 : FVec Ideal S4096x256 .f32) (v1 : FVec Ideal S256x64 .f32) (v3 : FVec Ideal S64x64 .f32) (v5 : FVec Ideal S64x1 .f32)
    (v7 : FVec Ideal S64x32 .f32) (v9 : FVec Ideal S32x1 .f32) : FVec Ideal S32x4096 .f32 :=
  maximumf (addf (matmul dot_S64x32_S64x4096_S32x4096_0_0_1_1_n_n none (shapeCast S64x32 v7 shapeCasts_S64x32_S64x32 : FVec Ideal S64x32 .f32) (act1 v0 v1 v3 v5)
        (constant S32x4096 .f32 0x00000000#32))
      (broadcastTo S32x4096 (shapeCast S32x1 v9 shapeCasts_S32x1_S32x1 : FVec Ideal S32x1 .f32) broadcasts_S32x1_S32x4096))
    (broadcast S32x4096 (Scalar.ofBits .f32 0x00000000#32))

/-- The stored value is row 0 of the last product over those activations. -/
theorem payload_eq (v0 : FVec Ideal S4096x256 .f32) (v1 : FVec Ideal S256x64 .f32) (v3 : FVec Ideal S64x64 .f32) (v5 : FVec Ideal S64x1 .f32)
    (v7 : FVec Ideal S64x32 .f32) (v9 : FVec Ideal S32x1 .f32) (v11 : FVec Ideal S32x64 .f32) :
    k0_pay1 (F := Ideal) v0 v1 v3 v5 v7 v9 v11
      = extractStridedSlice S1x4096 ![0, 0]
          (matmul dot_S32x64_S32x4096_S64x4096_0_0_1_1_n_n none (shapeCast S32x64 v11 shapeCasts_S32x64_S32x64 : FVec Ideal S32x64 .f32) (act2 v0 v1 v3 v5 v7 v9)
            (constant S64x4096 .f32 0x00000000#32))
          slices_S64x4096_o0_0_S1x4096 := rfl

/-! ## A bias column broadcast across the batch axis -/

/-- An `[a, 1]` column broadcast to `[a, b]` reads, at `(j, p)`, the column's entry `j`. -/
theorem column_across {a b : Nat} (ha : a ≠ 1) (v : (⟨2, ![a, 1]⟩ : Shape).Idx → EReal)
    (h : (⟨2, ![a, 1]⟩ : Shape).Broadcasts ⟨2, ![a, b]⟩) (j : Fin a) (p : Fin b) :
    broadcastTo ⟨2, ![a, b]⟩ v h (ix2 j p) = v (ix2 j 0) :=
  broadcastTo_apply v h (ix2 j p) (ix2 j 0) fun d => by
    match d with
    | ⟨0, _⟩ => show j.val = if a = 1 then 0 else j.val; rw [if_neg ha]
    | ⟨1, _⟩ => show (0 : Fin 1).val = if (1 : Nat) = 1 then 0 else p.val; rw [if_pos rfl]; rfl

/-! ## Each layer at column `p` -/

variable (v0 : FVec Ideal S4096x256 .f32) (v1 : FVec Ideal S256x64 .f32) (v3 : FVec Ideal S64x64 .f32) (v5 : FVec Ideal S64x1 .f32)
  (v7 : FVec Ideal S64x32 .f32) (v9 : FVec Ideal S32x1 .f32) (v11 : FVec Ideal S32x64 .f32)

/-- Column `p` of the embedding's activations is the embedding of the block's row `p`. -/
theorem act0_apply (i : Fin 64) (p : Fin 4096) :
    act0 v0 v1 (ix2 i p) = embed (fun q => v0 (ix2 p q)) (fun q i => v1 (ix2 q i)) i := by
  unfold act0 embed
  rw [maximumf_apply, shapeCast_self, Cert.DotTN.matmul_zero_apply dims_embed]
  exact congrArg₂ max (Finset.sum_congr rfl fun q _ => mul_comm _ _) rfl

/-- Column `p` of the first hidden layer's activations is that layer on the block's row `p`. -/
theorem act1_apply (j : Fin 64) (p : Fin 4096) :
    act1 v0 v1 v3 v5 (ix2 j p)
      = hidden1 (fun q => v0 (ix2 p q)) (fun q i => v1 (ix2 q i)) (fun i j => v3 (ix2 i j)) (fun j => v5 (ix2 j 0)) j := by
  unfold act1 hidden1
  rw [maximumf_apply, addf_apply, shapeCast_self, shapeCast_self, Cert.DotFirstAxes.matmul_zero_apply dims_hidden1]
  refine congrArg₂ max (congrArg₂ (· + ·) (Finset.sum_congr rfl fun i _ => ?_) ?_) rfl
  · rw [act0_apply]; exact mul_comm _ _
  · exact column_across (by decide) v5 broadcasts_S64x1_S64x4096 j p

/-- Column `p` of the second hidden layer's activations is that layer on the block's row `p`. -/
theorem act2_apply (k : Fin 32) (p : Fin 4096) :
    act2 v0 v1 v3 v5 v7 v9 (ix2 k p)
      = hidden2 (fun q => v0 (ix2 p q)) (fun q i => v1 (ix2 q i)) (fun i j => v3 (ix2 i j)) (fun j => v5 (ix2 j 0))
          (fun j k => v7 (ix2 j k)) (fun k => v9 (ix2 k 0)) k := by
  unfold act2 hidden2
  rw [maximumf_apply, addf_apply, shapeCast_self, shapeCast_self, Cert.DotFirstAxes.matmul_zero_apply dims_hidden2]
  refine congrArg₂ max (congrArg₂ (· + ·) (Finset.sum_congr rfl fun j _ => ?_) ?_) rfl
  · rw [act1_apply]; exact mul_comm _ _
  · exact column_across (by decide) v9 broadcasts_S32x1_S32x4096 k p

/-- THE STORED ENTRY `(0, p)` is the network's output for row `p` of the input block, with the weights read from
    the six loaded pieces: whole matrices for the three inner layers, column 0 for the two biases and the last layer. -/
theorem payload_apply (p : Fin 4096) :
    k0_pay1 (F := Ideal) v0 v1 v3 v5 v7 v9 v11 (ix2 (0 : Fin 1) p)
      = mlpRow (fun q => v0 (ix2 p q)) (fun q i => v1 (ix2 q i)) (fun i j => v3 (ix2 i j)) (fun j => v5 (ix2 j 0))
          (fun j k => v7 (ix2 j k)) (fun k => v9 (ix2 k 0)) (fun k => v11 (ix2 k 0)) := by
  rw [payload_eq]
  refine (extractStridedSlice_apply ![0, 0] _ slices_S64x4096_o0_0_S1x4096 (ix2 (0 : Fin 1) p) (ix2 (0 : Fin 64) p) (fun a => ?_)).trans ?_
  · match a with
    | ⟨0, _⟩ => rfl
    | ⟨1, _⟩ => exact (Nat.zero_add _).symm
  rw [shapeCast_self, Cert.DotFirstAxes.matmul_zero_apply dims_out]
  unfold mlpRow
  refine Finset.sum_congr rfl fun k _ => ?_
  rw [act2_apply]; exact mul_comm _ _

end Cert.KernelIdeal.Row

end
-- ==== Proof.LibUpdateSlice.lean ====
/-
  A slice update read at one entry.

  `updateSlice x upd start` is `x` except on the box of `upd`'s shape at the offsets `start`, where it
  holds `upd`. Read at an index: inside the box it is `upd` at the index minus the offsets; at an index
  that leaves the box on SOME axis it is `x` there. The host's `dynamic_update_slice` clamps its signed
  start so that the box fits; when the start is a non-negative number at which the box already fits, the
  clamp changes nothing, and the two readings hold at that start. Stated for every rank and element type,
  and again for matrices with the entry given by its row and column.
-/
import Idealize.ShloMosaic.Lib.Pipeline.Value
import Idealize.ShloMosaic.Lib.ValueIdx

noncomputable section

namespace Cert.UpdateSlice

open Idealize.ShloMosaic Idealize.ShloMosaic.ValueIdx

variable {α : Type} {s u : Shape}

/-- Inside the box the update is read, at the index with the offsets taken off. -/
theorem updateSlice_inside (x : s.Idx → α) (upd : u.Idx → α) (start : Fin s.rank → Nat) (h : s.Slices start u)
    (i : s.Idx) (k : u.Idx) (hk : ∀ b : Fin u.rank, (i (b.cast h.1)).val = start (b.cast h.1) + (k b).val) :
    updateSlice x upd start h i = upd k := by
  unfold updateSlice
  have hin : ∀ a : Fin s.rank, start a ≤ (i a).val ∧ (i a).val < start a + u.size (a.cast h.1.symm) := fun a => by
    have e := hk (a.cast h.1.symm)
    have hb := (k (a.cast h.1.symm)).isLt
    have ea : (a.cast h.1.symm).cast h.1 = a := rfl
    rw [ea] at e
    omega
  rw [dif_pos hin]
  refine congrArg upd (funext fun b => Fin.ext ?_)
  have e := hk b
  show (i (b.cast h.1)).val - start (b.cast h.1) = (k b).val
  omega

/-- At an index that leaves the box on axis `a` the operand is read. -/
theorem updateSlice_outside (x : s.Idx → α) (upd : u.Idx → α) (start : Fin s.rank → Nat) (h : s.Slices start u)
    (i : s.Idx) (a : Fin s.rank) (ha : (i a).val < start a ∨ start a + u.size (a.cast h.1.symm) ≤ (i a).val) :
    updateSlice x upd start h i = x i := by
  unfold updateSlice
  rw [dif_neg (fun hin => by have := hin a; omega)]

/-! ## Matrices: the host's clamped update at a start where the box fits -/

section Matrix

variable {R C r c : Nat}

/-- The clamp of a start at which the box already fits is that start. -/
private theorem clamp_fits (st : Int) (n big small : Nat) (hst : st = (n : Int)) (hfit : n + small ≤ big) :
    (min (max st 0) ((big - small : Nat) : Int)).toNat = n := by
  subst hst; omega

/-- The host's update of a matrix, at an entry of the box: the update's entry. -/
theorem dynamicUpdateSlice_inside (x : (⟨2, ![R, C]⟩ : Shape).Idx → α) (upd : (⟨2, ![r, c]⟩ : Shape).Idx → α)
    (start : Fin 2 → Int) (h : (⟨2, ![R, C]⟩ : Shape).Slices (fun _ => 0) ⟨2, ![r, c]⟩) (r0 c0 : Nat)
    (hr : start 0 = (r0 : Int)) (hc : start 1 = (c0 : Int)) (hR : r0 + r ≤ R) (hC : c0 + c ≤ C)
    (P : Fin R) (Q : Fin C) (p : Fin r) (q : Fin c) (hP : P.val = r0 + p.val) (hQ : Q.val = c0 + q.val) :
    Host.dynamicUpdateSlice x upd start h (ix2 P Q) = upd (ix2 p q) := by
  have hfit : (⟨2, ![R, C]⟩ : Shape).Slices ![r0, c0] ⟨2, ![r, c]⟩ := ⟨rfl, fun a => by
    match a with
    | ⟨0, _⟩ => exact hR
    | ⟨1, _⟩ => exact hC⟩
  rw [Host.dynamicUpdateSlice_eq_updateSlice x upd start h ![r0, c0] (fun a => by
    match a with
    | ⟨0, _⟩ => exact clamp_fits (start 0) r0 R r hr hR
    | ⟨1, _⟩ => exact clamp_fits (start 1) c0 C c hc hC) hfit]
  refine updateSlice_inside x upd ![r0, c0] hfit (ix2 P Q) (ix2 p q) fun b => ?_
  match b with
  | ⟨0, _⟩ => exact hP
  | ⟨1, _⟩ => exact hQ

/-- The host's update of a matrix, at an entry whose row is outside the box's rows: the operand's entry. -/
theorem dynamicUpdateSlice_row_outside (x : (⟨2, ![R, C]⟩ : Shape).Idx → α) (upd : (⟨2, ![r, c]⟩ : Shape).Idx → α)
    (start : Fin 2 → Int) (h : (⟨2, ![R, C]⟩ : Shape).Slices (fun _ => 0) ⟨2, ![r, c]⟩) (r0 c0 : Nat)
    (hr : start 0 = (r0 : Int)) (hc : start 1 = (c0 : Int)) (hR : r0 + r ≤ R) (hC : c0 + c ≤ C)
    (P : Fin R) (Q : Fin C) (hP : P.val < r0 ∨ r0 + r ≤ P.val) :
    Host.dynamicUpdateSlice x upd start h (ix2 P Q) = x (ix2 P Q) := by
  have hfit : (⟨2, ![R, C]⟩ : Shape).Slices ![r0, c0] ⟨2, ![r, c]⟩ := ⟨rfl, fun a => by
    match a with
    | ⟨0, _⟩ => exact hR
    | ⟨1, _⟩ => exact hC⟩
  rw [Host.dynamicUpdateSlice_eq_updateSlice x upd start h ![r0, c0] (fun a => by
    match a with
    | ⟨0, _⟩ => exact clamp_fits (start 0) r0 R r hr hR
    | ⟨1, _⟩ => exact clamp_fits (start 1) c0 C c hc hC) hfit]
  exact updateSlice_outside x upd ![r0, c0] hfit (ix2 P Q) 0 hP

/-- The host's update of a matrix, at an entry whose column is outside the box's columns: the operand's entry. -/
theorem dynamicUpdateSlice_col_outside (x : (⟨2, ![R, C]⟩ : Shape).Idx → α) (upd : (⟨2, ![r, c]⟩ : Shape).Idx → α)
    (start : Fin 2 → Int) (h : (⟨2, ![R, C]⟩ : Shape).Slices (fun _ => 0) ⟨2, ![r, c]⟩) (r0 c0 : Nat)
    (hr : start 0 = (r0 : Int)) (hc : start 1 = (c0 : Int)) (hR : r0 + r ≤ R) (hC : c0 + c ≤ C)
    (P : Fin R) (Q : Fin C) (hQ : Q.val < c0 ∨ c0 + c ≤ Q.val) :
    Host.dynamicUpdateSlice x upd start h (ix2 P Q) = x (ix2 P Q) := by
  have hfit : (⟨2, ![R, C]⟩ : Shape).Slices ![r0, c0] ⟨2, ![r, c]⟩ := ⟨rfl, fun a => by
    match a with
    | ⟨0, _⟩ => exact hR
    | ⟨1, _⟩ => exact hC⟩
  rw [Host.dynamicUpdateSlice_eq_updateSlice x upd start h ![r0, c0] (fun a => by
    match a with
    | ⟨0, _⟩ => exact clamp_fits (start 0) r0 R r hr hR
    | ⟨1, _⟩ => exact clamp_fits (start 1) c0 C c hc hC) hfit]
  exact updateSlice_outside x upd ![r0, c0] hfit (ix2 P Q) 1 hQ

end Matrix

end Cert.UpdateSlice

end
-- ==== Proof.PackedWeights.lean ====
/-
  Six weight arrays packed into one, and read back.

  A 512 × 64 background array is updated six times, at row offsets 0, 256, 320, 384, 448 and 480 and column
  offset 0, with a 256 × 64, a 64 × 64, a 64 × 1, a 64 × 32, a 32 × 1 and a 32 × 1 array. The six boxes
  occupy disjoint bands of rows, so a later update never touches an earlier one: an entry of band `b` is
  outside the rows of every later box, and inside box `b`, where it reads update `b` at the row minus the
  band's offset. Nothing is said about the entries no box covers (the background), and nothing is needed.
-/
import proofs.«155400_g9534827397533_cont_9to1c4b_304_24_alg».proof.Proof.LibUpdateSlice

noncomputable section

namespace Cert.Packed

open Idealize.ShloMosaic Idealize.ShloMosaic.ValueIdx Cert.UpdateSlice

variable {α : Type}

abbrev Sp : Shape := ⟨2, ![512, 64]⟩
abbrev Se : Shape := ⟨2, ![256, 64]⟩
abbrev S1 : Shape := ⟨2, ![64, 64]⟩
abbrev Sc1 : Shape := ⟨2, ![64, 1]⟩
abbrev S2 : Shape := ⟨2, ![64, 32]⟩
abbrev Sc2 : Shape := ⟨2, ![32, 1]⟩

variable (z : Sp.Idx → α) (We : Se.Idx → α) (W1 : S1.Idx → α) (b1 : Sc1.Idx → α) (W2 : S2.Idx → α) (b2 : Sc2.Idx → α)
  (W3 : Sc2.Idx → α) (s1 s2 s3 s4 s5 s6 : Fin 2 → Int)
  (h1 : Sp.Slices (fun _ => 0) Se) (h2 : Sp.Slices (fun _ => 0) S1) (h3 : Sp.Slices (fun _ => 0) Sc1)
  (h4 : Sp.Slices (fun _ => 0) S2) (h5 : Sp.Slices (fun _ => 0) Sc2) (h6 : Sp.Slices (fun _ => 0) Sc2)

/-- The background after the six updates, in order. -/
def packed : Sp.Idx → α :=
  Host.dynamicUpdateSlice (Host.dynamicUpdateSlice (Host.dynamicUpdateSlice (Host.dynamicUpdateSlice
    (Host.dynamicUpdateSlice (Host.dynamicUpdateSlice z We s1 h1) W1 s2 h2) b1 s3 h3) W2 s4 h4) b2 s5 h5) W3 s6 h6

/-- The six offsets: rows 0, 256, 320, 384, 448, 480; column 0 each time. -/
structure Offsets : Prop where
  r1 : s1 0 = ((0 : Nat) : Int)
  c1 : s1 1 = ((0 : Nat) : Int)
  r2 : s2 0 = ((256 : Nat) : Int)
  c2 : s2 1 = ((0 : Nat) : Int)
  r3 : s3 0 = ((320 : Nat) : Int)
  c3 : s3 1 = ((0 : Nat) : Int)
  r4 : s4 0 = ((384 : Nat) : Int)
  c4 : s4 1 = ((0 : Nat) : Int)
  r5 : s5 0 = ((448 : Nat) : Int)
  c5 : s5 1 = ((0 : Nat) : Int)
  r6 : s6 0 = ((480 : Nat) : Int)
  c6 : s6 1 = ((0 : Nat) : Int)

variable {s1 s2 s3 s4 s5 s6}

/-- Rows 0 … 255 hold the first array. -/
theorem packed_band1 (o : Offsets s1 s2 s3 s4 s5 s6) (q : Fin 256) (i : Fin 64) :
    packed z We W1 b1 W2 b2 W3 s1 s2 s3 s4 s5 s6 h1 h2 h3 h4 h5 h6 (ix2 (⟨q.val, by omega⟩ : Fin 512) i) = We (ix2 q i) := by
  unfold packed
  have hq := q.isLt
  refine (dynamicUpdateSlice_row_outside _ W3 s6 h6 480 0 o.r6 o.c6 (by omega) (by omega) _ _ (Or.inl (by show q.val < 480; omega))).trans ?_
  refine (dynamicUpdateSlice_row_outside _ b2 s5 h5 448 0 o.r5 o.c5 (by omega) (by omega) _ _ (Or.inl (by show q.val < 448; omega))).trans ?_
  refine (dynamicUpdateSlice_row_outside _ W2 s4 h4 384 0 o.r4 o.c4 (by omega) (by omega) _ _ (Or.inl (by show q.val < 384; omega))).trans ?_
  refine (dynamicUpdateSlice_row_outside _ b1 s3 h3 320 0 o.r3 o.c3 (by omega) (by omega) _ _ (Or.inl (by show q.val < 320; omega))).trans ?_
  refine (dynamicUpdateSlice_row_outside _ W1 s2 h2 256 0 o.r2 o.c2 (by omega) (by omega) _ _ (Or.inl (by show q.val < 256; omega))).trans ?_
  exact dynamicUpdateSlice_inside z We s1 h1 0 0 o.r1 o.c1 (by omega) (by omega) _ _ q i (by show q.val = 0 + q.val; omega) (by show i.val = 0 + i.val; omega)

/-- Rows 256 … 319 hold the second array. -/
theorem packed_band2 (o : Offsets s1 s2 s3 s4 s5 s6) (i : Fin 64) (j : Fin 64) :
    packed z We W1 b1 W2 b2 W3 s1 s2 s3 s4 s5 s6 h1 h2 h3 h4 h5 h6 (ix2 (⟨256 + i.val, by omega⟩ : Fin 512) j) = W1 (ix2 i j) := by
  unfold packed
  have hi := i.isLt
  refine (dynamicUpdateSlice_row_outside _ W3 s6 h6 480 0 o.r6 o.c6 (by omega) (by omega) _ _ (Or.inl (by show 256 + i.val < 480; omega))).trans ?_
  refine (dynamicUpdateSlice_row_outside _ b2 s5 h5 448 0 o.r5 o.c5 (by omega) (by omega) _ _ (Or.inl (by show 256 + i.val < 448; omega))).trans ?_
  refine (dynamicUpdateSlice_row_outside _ W2 s4 h4 384 0 o.r4 o.c4 (by omega) (by omega) _ _ (Or.inl (by show 256 + i.val < 384; omega))).trans ?_
  refine (dynamicUpdateSlice_row_outside _ b1 s3 h3 320 0 o.r3 o.c3 (by omega) (by omega) _ _ (Or.inl (by show 256 + i.val < 320; omega))).trans ?_
  exact dynamicUpdateSlice_inside _ W1 s2 h2 256 0 o.r2 o.c2 (by omega) (by omega) _ _ i j rfl (by show j.val = 0 + j.val; omega)

/-- Rows 320 … 383, column 0, hold the third array (a column). -/
theorem packed_band3 (o : Offsets s1 s2 s3 s4 s5 s6) (j : Fin 64) :
    packed z We W1 b1 W2 b2 W3 s1 s2 s3 s4 s5 s6 h1 h2 h3 h4 h5 h6 (ix2 (⟨320 + j.val, by omega⟩ : Fin 512) (0 : Fin 64))
      = b1 (ix2 j (0 : Fin 1)) := by
  unfold packed
  have hj := j.isLt
  refine (dynamicUpdateSlice_row_outside _ W3 s6 h6 480 0 o.r6 o.c6 (by omega) (by omega) _ _ (Or.inl (by show 320 + j.val < 480; omega))).trans ?_
  refine (dynamicUpdateSlice_row_outside _ b2 s5 h5 448 0 o.r5 o.c5 (by omega) (by omega) _ _ (Or.inl (by show 320 + j.val < 448; omega))).trans ?_
  refine (dynamicUpdateSlice_row_outside _ W2 s4 h4 384 0 o.r4 o.c4 (by omega) (by omega) _ _ (Or.inl (by show 320 + j.val < 384; omega))).trans ?_
  exact dynamicUpdateSlice_inside _ b1 s3 h3 320 0 o.r3 o.c3 (by omega) (by omega) _ _ j 0 rfl rfl

/-- Rows 384 … 447, columns 0 … 31, hold the fourth array. -/
theorem packed_band4 (o : Offsets s1 s2 s3 s4 s5 s6) (j : Fin 64) (k : Fin 32) :
    packed z We W1 b1 W2 b2 W3 s1 s2 s3 s4 s5 s6 h1 h2 h3 h4 h5 h6 (ix2 (⟨384 + j.val, by omega⟩ : Fin 512) (⟨k.val, by omega⟩ : Fin 64))
      = W2 (ix2 j k) := by
  unfold packed
  have hj := j.isLt
  refine (dynamicUpdateSlice_row_outside _ W3 s6 h6 480 0 o.r6 o.c6 (by omega) (by omega) _ _ (Or.inl (by show 384 + j.val < 480; omega))).trans ?_
  refine (dynamicUpdateSlice_row_outside _ b2 s5 h5 448 0 o.r5 o.c5 (by omega) (by omega) _ _ (Or.inl (by show 384 + j.val < 448; omega))).trans ?_
  exact dynamicUpdateSlice_inside _ W2 s4 h4 384 0 o.r4 o.c4 (by omega) (by omega) _ _ j k rfl (by show k.val = 0 + k.val; omega)

/-- Rows 448 … 479, column 0, hold the fifth array (a column). -/
theorem packed_band5 (o : Offsets s1 s2 s3 s4 s5 s6) (k : Fin 32) :
    packed z We W1 b1 W2 b2 W3 s1 s2 s3 s4 s5 s6 h1 h2 h3 h4 h5 h6 (ix2 (⟨448 + k.val, by omega⟩ : Fin 512) (0 : Fin 64))
      = b2 (ix2 k (0 : Fin 1)) := by
  unfold packed
  have hk := k.isLt
  refine (dynamicUpdateSlice_row_outside _ W3 s6 h6 480 0 o.r6 o.c6 (by omega) (by omega) _ _ (Or.inl (by show 448 + k.val < 480; omega))).trans ?_
  exact dynamicUpdateSlice_inside _ b2 s5 h5 448 0 o.r5 o.c5 (by omega) (by omega) _ _ k 0 rfl rfl

/-- Rows 480 … 511, column 0, hold the sixth array (a column). -/
theorem packed_band6 (o : Offsets s1 s2 s3 s4 s5 s6) (k : Fin 32) :
    packed z We W1 b1 W2 b2 W3 s1 s2 s3 s4 s5 s6 h1 h2 h3 h4 h5 h6 (ix2 (⟨480 + k.val, by omega⟩ : Fin 512) (0 : Fin 64))
      = W3 (ix2 k (0 : Fin 1)) := by
  unfold packed
  exact dynamicUpdateSlice_inside _ W3 s6 h6 480 0 o.r6 o.c6 (by omega) (by omega) _ _ k 0 rfl rfl

/-- An array that holds the six weight arrays in their bands. -/
structure Bands (A : Sp.Idx → α) (We : Se.Idx → α) (W1 : S1.Idx → α) (b1 : Sc1.Idx → α) (W2 : S2.Idx → α) (b2 : Sc2.Idx → α)
    (W3 : Sc2.Idx → α) : Prop where
  band1 : ∀ (q : Fin 256) (i : Fin 64), A (ix2 (⟨q.val, by omega⟩ : Fin 512) i) = We (ix2 q i)
  band2 : ∀ (i j : Fin 64), A (ix2 (⟨256 + i.val, by omega⟩ : Fin 512) j) = W1 (ix2 i j)
  band3 : ∀ j : Fin 64, A (ix2 (⟨320 + j.val, by omega⟩ : Fin 512) (0 : Fin 64)) = b1 (ix2 j (0 : Fin 1))
  band4 : ∀ (j : Fin 64) (k : Fin 32), A (ix2 (⟨384 + j.val, by omega⟩ : Fin 512) (⟨k.val, by omega⟩ : Fin 64)) = W2 (ix2 j k)
  band5 : ∀ k : Fin 32, A (ix2 (⟨448 + k.val, by omega⟩ : Fin 512) (0 : Fin 64)) = b2 (ix2 k (0 : Fin 1))
  band6 : ∀ k : Fin 32, A (ix2 (⟨480 + k.val, by omega⟩ : Fin 512) (0 : Fin 64)) = W3 (ix2 k (0 : Fin 1))

/-- The six updates at the six offsets leave such an array, whatever the background. -/
theorem bands_of_packed (o : Offsets s1 s2 s3 s4 s5 s6) :
    Bands (packed z We W1 b1 W2 b2 W3 s1 s2 s3 s4 s5 s6 h1 h2 h3 h4 h5 h6) We W1 b1 W2 b2 W3 :=
  ⟨packed_band1 z We W1 b1 W2 b2 W3 h1 h2 h3 h4 h5 h6 o, packed_band2 z We W1 b1 W2 b2 W3 h1 h2 h3 h4 h5 h6 o,
    packed_band3 z We W1 b1 W2 b2 W3 h1 h2 h3 h4 h5 h6 o, packed_band4 z We W1 b1 W2 b2 W3 h1 h2 h3 h4 h5 h6 o,
    packed_band5 z We W1 b1 W2 b2 W3 h1 h2 h3 h4 h5 h6 o, packed_band6 z We W1 b1 W2 b2 W3 h1 h2 h3 h4 h5 h6 o⟩

end Cert.Packed

end
-- ==== Proof.KernelPack.lean ====
/-
  What the region finds in its second operand.

  Before the region the host builds one 512 × 64 array: zeros, then the embedding weights at row 0, the first
  layer's weights at row 256, the first bias as a column at row 320, the second layer's weights at row 384,
  the second bias as a column at row 448 and the last layer's weights at row 480, all at column 0. Each offset
  is a constant of the program. So the array holds the six weight arrays in six disjoint bands of rows, the
  two biases as the columns their vectors were reshaped to.
-/
import proofs.«155400_g9534827397533_cont_9to1c4b_304_24_alg».proof.Proof.Gen.KernelIdeal.Frame
import proofs.«155400_g9534827397533_cont_9to1c4b_304_24_alg».proof.Proof.PackedWeights
import Idealize.ShloMosaic.Lib.StableHlo.Run

noncomputable section

namespace Cert.KernelIdeal.Pack

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (c : Dev nD)

set_option maxHeartbeats 4000000 in
/-- The array the region's second window stages holds the arguments' weights in their bands. -/
theorem bands :
    Cert.Packed.Bands (V (F := Ideal) m c main_v8 : S512x64.Idx → EReal)
      (m ((c : Thread nD τ).loc main_arg1)) (m ((c : Thread nD τ).loc main_arg2))
      (fun i => shapeCast S64x1 (m ((c : Thread nD τ).loc main_arg3)) shapeCasts_S64_S64x1 i)
      (m ((c : Thread nD τ).loc main_arg4))
      (fun i => shapeCast S32x1 (m ((c : Thread nD τ).loc main_arg5)) shapeCasts_S32_S32x1 i)
      (m ((c : Thread nD τ).loc main_arg6)) := by
  show Cert.Packed.Bands (StableHlo.after hostOps0 (fun b => m (c, b)) (Proc.devRef .tc main_v8)) _ _ _ _ _ _
  after_results_simp
  exact Cert.Packed.bands_of_packed _ _ _ _ _ _ _ _ _ _ _ _ _ (by exact ⟨rfl, rfl, rfl, rfl, rfl, rfl, rfl, rfl, rfl, rfl, rfl, rfl⟩)

end Cert.KernelIdeal.Pack

end
-- ==== Proof.Network.lean ====
/-
  The network on the whole batch, as one array.

  Entry `n` of the result is the one-row network on row `n` of the input. The kernel produces the 16384
  numbers as one ROW `[1, 16384]` and the host reshapes it to the COLUMN `[16384, 1]` the reference
  returns; a reshape keeps row-major positions, and entry `(0, n)` of the row and entry `(n, 0)` of the
  column both sit at position `n`.
-/
import proofs.«155400_g9534827397533_cont_9to1c4b_304_24_alg».proof.Proof.MlpRow
import Idealize.ShloMosaic.Lib.Pipeline.Value
import Idealize.ShloMosaic.Lib.ValueIdx

noncomputable section

open scoped BigOperators

namespace Cert.Mlp

open Idealize.ShloMosaic Idealize.ShloMosaic.ValueIdx

/-- The one-row network depends on its seven arguments entry by entry. -/
theorem mlpRow_congr {x x' : Fin 256 → EReal} {We We' : Fin 256 → Fin 64 → EReal} {W1 W1' : Fin 64 → Fin 64 → EReal}
    {b1 b1' : Fin 64 → EReal} {W2 W2' : Fin 64 → Fin 32 → EReal} {b2 b2' : Fin 32 → EReal} {w3 w3' : Fin 32 → EReal}
    (h0 : ∀ q, x q = x' q) (h1 : ∀ q i, We q i = We' q i) (h2 : ∀ i j, W1 i j = W1' i j) (h3 : ∀ j, b1 j = b1' j)
    (h4 : ∀ j k, W2 j k = W2' j k) (h5 : ∀ k, b2 k = b2' k) (h6 : ∀ k, w3 k = w3' k) :
    mlpRow x We W1 b1 W2 b2 w3 = mlpRow x' We' W1' b1' W2' b2' w3' := by
  obtain rfl : x = x' := funext h0
  obtain rfl : We = We' := funext fun q => funext (h1 q)
  obtain rfl : W1 = W1' := funext fun i => funext (h2 i)
  obtain rfl : b1 = b1' := funext h3
  obtain rfl : W2 = W2' := funext fun j => funext (h4 j)
  obtain rfl : b2 = b2' := funext h5
  obtain rfl : w3 = w3' := funext h6
  rfl

variable (inp : (⟨2, ![16384, 256]⟩ : Shape).Idx → EReal) (We : (⟨2, ![256, 64]⟩ : Shape).Idx → EReal)
  (W1 : (⟨2, ![64, 64]⟩ : Shape).Idx → EReal) (b1 : (⟨1, ![64]⟩ : Shape).Idx → EReal)
  (W2 : (⟨2, ![64, 32]⟩ : Shape).Idx → EReal) (b2 : (⟨1, ![32]⟩ : Shape).Idx → EReal)
  (W3 : (⟨2, ![32, 1]⟩ : Shape).Idx → EReal)

/-- The network's output for row `n` of the batch, from the argument arrays. -/
def netOut (n : Fin 16384) : EReal :=
  mlpRow (fun q => inp (ix2 n q)) (fun q i => We (ix2 q i)) (fun i j => W1 (ix2 i j)) (fun j => b1 (ix1 j))
    (fun j k => W2 (ix2 j k)) (fun k => b2 (ix1 k)) (fun k => W3 (ix2 k (0 : Fin 1)))

/-- The outputs laid out as one row. -/
def netRow : (⟨2, ![1, 16384]⟩ : Shape).Idx → EReal := fun i => netOut inp We W1 b1 W2 b2 W3 ⟨(i 1).val, (i 1).isLt⟩

/-- The outputs laid out as one column. -/
def netCol : (⟨2, ![16384, 1]⟩ : Shape).Idx → EReal := fun i => netOut inp We W1 b1 W2 b2 W3 ⟨(i 0).val, (i 0).isLt⟩

/-- The row reshaped to a column is the column. -/
theorem reshape_netRow (h : (⟨2, ![1, 16384]⟩ : Shape).ShapeCasts ⟨2, ![16384, 1]⟩) :
    shapeCast ⟨2, ![16384, 1]⟩ (netRow inp We W1 b1 W2 b2 W3) h = netCol inp We W1 b1 W2 b2 W3 := by
  funext i
  refine (shapeCast_apply _ h i (ix2 (0 : Fin 1) (⟨(i 0).val, (i 0).isLt⟩ : Fin 16384)) ?_).trans rfl
  rw [Shape.rowMajor_val_two, Shape.rowMajor_val_two]
  have h1 : (i 1).val < 1 := (i 1).isLt
  show (0 : Nat) * 16384 + (i 0).val = (i 0).val * 1 + (i 1).val
  omega

/-- A vector reshaped to a column reads, at `(j, 0)`, the vector's entry `j`. -/
theorem column_of_vector {α : Type} {a : Nat} (x : (⟨1, ![a]⟩ : Shape).Idx → α) (h : (⟨1, ![a]⟩ : Shape).ShapeCasts ⟨2, ![a, 1]⟩)
    (j : Fin a) : shapeCast ⟨2, ![a, 1]⟩ x h (ix2 j (0 : Fin 1)) = x (ix1 j) := by
  refine shapeCast_apply x h (ix2 j (0 : Fin 1)) (ix1 j) ?_
  rw [Shape.rowMajor_val_one, Shape.rowMajor_val_two]
  show j.val = j.val * 1 + 0
  omega

end Cert.Mlp

end
-- ==== Proof.KernelValue.lean ====
/-
  What the kernel's run leaves in its result.

  The grid has four points; point `t` is given rows `4096·t … 4096·t + 4095` of the input and the whole packed
  weight array, and writes back columns `4096·t … 4096·t + 4095` of the one-row output. The stored entry
  `(0, p)` is the network on the block's row `p` with the weights read from the packed array's six bands,
  that is, on row `4096·t + p` of the input with the arguments' weights: the block of the whole row of outputs
  that point `t`'s rectangle names. The four blocks tile the row, so after the region the output array is the
  row of all 16384 outputs, and the host's reshape turns it into the column.
-/
import proofs.«155400_g9534827397533_cont_9to1c4b_304_24_alg».proof.Proof.Gen.KernelIdeal.Frame
import proofs.«155400_g9534827397533_cont_9to1c4b_304_24_alg».proof.Proof.KernelRow
import proofs.«155400_g9534827397533_cont_9to1c4b_304_24_alg».proof.Proof.KernelPack
import proofs.«155400_g9534827397533_cont_9to1c4b_304_24_alg».proof.Proof.Network
import Idealize.ShloMosaic.Lib.Pipeline.Value
import Idealize.ShloMosaic.Lib.StableHlo.Run

set_option maxRecDepth 16384

noncomputable section

namespace Cert.KernelIdeal.Net

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Mlp

variable (m : (ℓ : Loc nD τ sig) → Buf (Elt Ideal) ℓ) (ρ : Dev nD → PrngReg)

/-- The row of all outputs, from the argument arrays as launched. -/
abbrev rowOf (c : Dev nD) : S1x16384.Idx → EReal :=
  netRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The column of all outputs, from the argument arrays as launched. -/
abbrev colOf (c : Dev nD) : S16384x1.Idx → EReal :=
  netCol (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem zero_offsets : (![0, 0] : Fin 2 → Nat) = fun _ => 0 := funext fun a => by fin_cases a <;> rfl

/-- The index maps over the grid: the input's row block is the output's column block, every other block index is 0. -/
theorem idx_facts : ∀ t : Fin cfg0.N, win0_0.index t (0 : Fin 2) = win0_2.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) ≤ 3 :=
  (by decide +kernel : ∀ t : Fin grid0.N, _)

/-- Every one of the four column blocks is some point's. -/
theorem idx_onto : ∀ q : Fin 4, ∃ t : Fin cfg0.N, win0_2.index t = ![0, q.val] :=
  (by decide +kernel : ∀ q : Fin 4, ∃ t : Fin grid0.N, win0_2.index t = ![0, q.val])

/-- WHAT POINT `t` WRITES BACK is block `t` of the row of all outputs. -/
theorem flushed_eq (c : Dev nD) (t : Fin cfg0.N) :
    (dats (F := Ideal) m 0 c).flushed 2 t = ((cfg0.win 2).blk t).view.read (Elt Ideal) (rowOf m c) := by
  show (cfg0.win 2).cut (grid0.coords t) ((dats m 0 c).after 2 t) = _
  rw [after0_2]
  unfold out0_2
  rw [View.canon_unit_zero zero_offsets]
  simp only [View.ld_unit_zero (S := S4096x256) zero_offsets]
  obtain ⟨e0, e1, e2, e3, e4, e5⟩ := idx_facts t
  have hb := Pack.bands m c
  funext y
  obtain ⟨u, p, rfl⟩ : ∃ (u : Fin 1) (p : Fin 4096), y = ix2 u p := ⟨y 0, y 1, eq_ix2 y⟩
  obtain rfl : u = 0 := Subsingleton.elim _ _
  refine (Row.payload_apply _ _ _ _ _ _ _ p).trans ?_
  show _ = netOut _ _ _ _ _ _ _ _
  unfold netOut
  have hp := p.isLt
  refine mlpRow_congr (fun q => ?_) (fun q i => ?_) (fun i j => ?_) (fun j => ?_) (fun j k => ?_) (fun k => ?_) (fun k => ?_)
  · -- the input block's row p is the input's row 4096·t + p
    show V m c main_arg0 (((cfg0.win 0).blk t).view.emb (ix2 p q)) = _
    rw [V_main_arg0]
    refine congrArg _ (funext fun a => Fin.ext ?_)
    match a with
    | ⟨0, _⟩ => show win0_0.index t (0 : Fin 2) * 4096 + 1 * p.val = win0_2.index t (1 : Fin 2) * 4096 + 1 * p.val; omega
    | ⟨1, _⟩ => show win0_0.index t (1 : Fin 2) * 256 + 1 * q.val = q.val; omega
  · -- band 1: the embedding weights
    show V m c main_v8 (((cfg0.win 1).blk t).view.emb (r0_1.idx (ix2 q i))) = _
    refine (congrArg (V m c main_v8) (?_ : _ = ix2 (⟨q.val, by omega⟩ : Fin 512) i)).trans (hb.band1 q i)
    funext a; apply Fin.ext
    match a with
    | ⟨0, _⟩ => show win0_1.index t (0 : Fin 2) * 512 + 1 * (0 + 1 * q.val) = q.val; omega
    | ⟨1, _⟩ => show win0_1.index t (1 : Fin 2) * 64 + 1 * (0 + 1 * i.val) = i.val; omega
  · -- band 2: the first layer's weights
    show V m c main_v8 (((cfg0.win 1).blk t).view.emb (r0_2.idx (ix2 i j))) = _
    refine (congrArg (V m c main_v8) (?_ : _ = ix2 (⟨256 + i.val, by omega⟩ : Fin 512) j)).trans (hb.band2 i j)
    funext a; apply Fin.ext
    match a with
    | ⟨0, _⟩ => show win0_1.index t (0 : Fin 2) * 512 + 1 * (256 + 1 * i.val) = 256 + i.val; omega
    | ⟨1, _⟩ => show win0_1.index t (1 : Fin 2) * 64 + 1 * (0 + 1 * j.val) = j.val; omega
  · -- band 3: the first bias, a column
    show V m c main_v8 (((cfg0.win 1).blk t).view.emb (r0_3.idx (ix2 j (0 : Fin 1)))) = _
    refine (congrArg (V m c main_v8) (?_ : _ = ix2 (⟨320 + j.val, by omega⟩ : Fin 512) (0 : Fin 64))).trans
      ((hb.band3 j).trans (column_of_vector _ shapeCasts_S64_S64x1 j))
    funext a; apply Fin.ext
    match a with
    | ⟨0, _⟩ => show win0_1.index t (0 : Fin 2) * 512 + 1 * (320 + 1 * j.val) = 320 + j.val; omega
    | ⟨1, _⟩ => show win0_1.index t (1 : Fin 2) * 64 + 1 * (0 + 1 * 0) = 0; omega
  · -- band 4: the second layer's weights
    show V m c main_v8 (((cfg0.win 1).blk t).view.emb (r0_4.idx (ix2 j k))) = _
    refine (congrArg (V m c main_v8) (?_ : _ = ix2 (⟨384 + j.val, by omega⟩ : Fin 512) (⟨k.val, by omega⟩ : Fin 64))).trans (hb.band4 j k)
    funext a; apply Fin.ext
    match a with
    | ⟨0, _⟩ => show win0_1.index t (0 : Fin 2) * 512 + 1 * (384 + 1 * j.val) = 384 + j.val; omega
    | ⟨1, _⟩ => show win0_1.index t (1 : Fin 2) * 64 + 1 * (0 + 1 * k.val) = k.val; omega
  · -- band 5: the second bias, a column
    show V m c main_v8 (((cfg0.win 1).blk t).view.emb (r0_5.idx (ix2 k (0 : Fin 1)))) = _
    refine (congrArg (V m c main_v8) (?_ : _ = ix2 (⟨448 + k.val, by omega⟩ : Fin 512) (0 : Fin 64))).trans
      ((hb.band5 k).trans (column_of_vector _ shapeCasts_S32_S32x1 k))
    funext a; apply Fin.ext
    match a with
    | ⟨0, _⟩ => show win0_1.index t (0 : Fin 2) * 512 + 1 * (448 + 1 * k.val) = 448 + k.val; omega
    | ⟨1, _⟩ => show win0_1.index t (1 : Fin 2) * 64 + 1 * (0 + 1 * 0) = 0; omega
  · -- band 6: the last layer's weights, column 0 of the padded load
    show V m c main_v8 (((cfg0.win 1).blk t).view.emb (r0_6.idx (ix2 k (0 : Fin 64)))) = _
    refine (congrArg (V m c main_v8) (?_ : _ = ix2 (⟨480 + k.val, by omega⟩ : Fin 512) (0 : Fin 64))).trans (hb.band6 k)
    funext a; apply Fin.ext
    match a with
    | ⟨0, _⟩ => show win0_1.index t (0 : Fin 2) * 512 + 1 * (480 + 1 * k.val) = 480 + k.val; omega
    | ⟨1, _⟩ => show win0_1.index t (1 : Fin 2) * 64 + 1 * (0 + 1 * 0) = 0; omega

/-- An index of the output row is in point `t`'s block iff each coordinate is in the block's range. -/
theorem mem_blk (t : Fin cfg0.N) (i : S1x16384.Idx) :
    i ∈ ((cfg0.win 2).blk t).view.set ↔ ∀ a : Fin 2, win0_2.index t a * S1x4096.size a ≤ (i a).val ∧ (i a).val < win0_2.index t a * S1x4096.size a + S1x4096.size a := by
  show i ∈ ((View.whole main_v9).slice (win0_2.rect t)).set ↔ _
  rw [View.set_slice_whole, Rect.mem_set_unit]
  exact Iff.rfl

/-- The four blocks cover the row: column `n` is in the block of point `n / 4096`. -/
theorem cover (i : S1x16384.Idx) : ∃ t : Fin cfg0.N, (cfg0.win 2).flush t = true ∧ i ∈ ((cfg0.win 2).blk t).view.set := by
  have hi0 : (i 0).val < 1 := (i 0).isLt
  have hi1 : (i 1).val < 16384 := (i 1).isLt
  obtain ⟨t, ht⟩ := idx_onto ⟨(i 1).val / 4096, by omega⟩
  have q0 : win0_2.index t (0 : Fin 2) = 0 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 4096 ≤ (i 1).val ∧ (i 1).val < win0_2.index t (1 : Fin 2) * 4096 + 4096; omega

/-- THE OUTPUT ARRAY after the region is the row of all outputs. -/
theorem final (c : Dev nD) : (dats (F := Ideal) m 0 c).arrAt 2 cfg0.N = rowOf m c :=
  (dats m 0 c).arrAt_eq_of_cover 2 (rowOf m c) (fun t _ => flushed_eq m c t) cover

/-- THE RESULT after the host's reshape is the column of all outputs. -/
theorem result_eq (c : Dev nD) :
    Pipeline.afterTail₀ cfgs (dats (F := Ideal) m) 0 (V0 m) [hostOps1] c main_v10 = colOf m c := by
  unfold Pipeline.afterTail₀
  show StableHlo.after hostOps1 _ (Proc.devRef .tc main_v10) = _
  after_results
  show shapeCast S16384x1 (Pipeline.withArrays spec0 c (V0 m c) (fun w => (dats m 0 c).arrAt w cfg0.N) (Proc.devRef .tc main_v9))
      shapeCasts_S1x16384_S16384x1 = _
  rw [show Pipeline.withArrays spec0 c (V0 m c) (fun w => (dats m 0 c).arrAt w cfg0.N) (Proc.devRef .tc main_v9) = rowOf m c from
    (Pipeline.withArrays_arr spec0 launch0.win.arr_inj c _ _ 2).trans (final m c)]
  exact reshape_netRow _ _ _ _ _ _ _ shapeCasts_S1x16384_S16384x1

/-- THE RUN: every weakly fair execution of the idealized kernel ends with the column of all outputs in its result
    and its arguments as launched. -/
theorem run : θ_run defs (onTc (τ := τ) (main (F := Ideal))) ⟨m, fun _ => 0, ρ⟩ (fun r => ∀ c : Dev nD,
      r.2.mem ((c.tc : Thread nD τ).loc main_v10) = colOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v10 (Pipeline.mem_restRefs_of main_v10 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Net

end
-- ==== Proof.ReferenceRow.lean ====
/-
  The reference's result, one entry at a time.

  The reference runs the network on the whole batch, batch × units: each layer is a plain matrix product of
  the previous activations with the layer's weights, a bias row broadcast down the batch where the layer has
  one, and `max(·, 0)`. Entry `n` of the result therefore depends on row `n` of the input alone, and is the
  one-row network's output for that row — term by term the same expression, with each bias read from the
  vector it is.
-/
import proofs.«155400_g9534827397533_cont_9to1c4b_304_24_alg».proof.Proof.Gen.ReferenceIdeal.Read
import proofs.«155400_g9534827397533_cont_9to1c4b_304_24_alg».proof.Proof.MlpRow
import Idealize.ShloMosaic.Lib.ValueIdx

noncomputable section

open scoped BigOperators

namespace Cert.ReferenceIdeal.Row

open Idealize.ShloMosaic Idealize.ShloMosaic.ValueIdx Cert.ReferenceIdeal Cert.ReferenceIdeal.Read Cert.Mlp

variable (x0 : (⟨S16384x256, .f32⟩ : BufTy).Contents (Elt Ideal)) (x1 : (⟨S256x64, .f32⟩ : BufTy).Contents (Elt Ideal))
  (x2 : (⟨S64x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (x6 : (⟨S32x1, .f32⟩ : BufTy).Contents (Elt Ideal))

/-- Row `n` of the embedding's activations is the embedding of the input's row `n`. -/
theorem embed_apply (n : Fin 16384) (i : Fin 64) :
    val_main_v1 (F := Ideal) x0 x1 (ix2 n i) = embed (fun q => x0 (ix2 n q)) (fun q i => x1 (ix2 q i)) i := by
  rw [val_main_v1_apply, val_main_v0_apply, val_main_call0_v0_apply, val_main_call0_cst_apply]
  unfold embed
  rw [Ideal.maximumf_def]
  refine congrArg₂ max (Finset.sum_congr rfl fun q _ => ?_) rfl
  have el : lidx_main_v0 (ix2 n i) q = ix2 n q := funext fun a => Fin.ext (by
    match a with
    | ⟨0, _⟩ => rfl
    | ⟨1, _⟩ => rfl)
  have er : ridx_main_v0 (ix2 n i) q = ix2 q i := funext fun a => Fin.ext (by
    match a with
    | ⟨0, _⟩ => rfl
    | ⟨1, _⟩ => rfl)
  rw [el, er]

/-- The first bias, broadcast down the batch, reads the bias vector at the unit. -/
theorem bias1_apply (n : Fin 16384) (j : Fin 64) : val_main_v4 (F := Ideal) x3 (ix2 n j) = x3 (ix1 j) := by
  rw [val_main_v4_apply, val_main_v3_apply]
  exact congrArg x3 (funext fun a => Fin.ext (by
    match a with
    | ⟨0, _⟩ => rfl))

/-- Row `n` of the first hidden layer's activations is that layer on the input's row `n`. -/
theorem hidden1_apply (n : Fin 16384) (j : Fin 64) :
    val_main_v6 (F := Ideal) x0 x1 x2 x3 (ix2 n j)
      = hidden1 (fun q => x0 (ix2 n q)) (fun q i => x1 (ix2 q i)) (fun i j => x2 (ix2 i j)) (fun j => x3 (ix1 j)) j := by
  rw [val_main_v6_apply, val_main_v5_apply, val_main_v2_apply, bias1_apply, val_main_call1_v0_apply, val_main_call1_cst_apply]
  unfold hidden1
  rw [Ideal.maximumf_def, Ideal.addf_def]
  refine congrArg₂ max (congrArg₂ (· + ·) (Finset.sum_congr rfl fun i _ => ?_) rfl) rfl
  have el : lidx_main_v2 (ix2 n j) i = ix2 n i := funext fun a => Fin.ext (by
    match a with
    | ⟨0, _⟩ => rfl
    | ⟨1, _⟩ => rfl)
  have er : ridx_main_v2 (ix2 n j) i = ix2 i j := funext fun a => Fin.ext (by
    match a with
    | ⟨0, _⟩ => rfl
    | ⟨1, _⟩ => rfl)
  rw [el, er, embed_apply]

/-- The second bias, broadcast down the batch, reads the bias vector at the unit. -/
theorem bias2_apply (n : Fin 16384) (k : Fin 32) : val_main_v9 (F := Ideal) x5 (ix2 n k) = x5 (ix1 k) := by
  rw [val_main_v9_apply, val_main_v8_apply]
  exact congrArg x5 (funext fun a => Fin.ext (by
    match a with
    | ⟨0, _⟩ => rfl))

/-- Row `n` of the second hidden layer's activations is that layer on the input's row `n`. -/
theorem hidden2_apply (n : Fin 16384) (k : Fin 32) :
    val_main_v11 (F := Ideal) x0 x1 x2 x3 x4 x5 (ix2 n k)
      = hidden2 (fun q => x0 (ix2 n q)) (fun q i => x1 (ix2 q i)) (fun i j => x2 (ix2 i j)) (fun j => x3 (ix1 j))
          (fun j k => x4 (ix2 j k)) (fun k => x5 (ix1 k)) k := by
  rw [val_main_v11_apply, val_main_v10_apply, val_main_v7_apply, bias2_apply, val_main_call2_v0_apply, val_main_call2_cst_apply]
  unfold hidden2
  rw [Ideal.maximumf_def, Ideal.addf_def]
  refine congrArg₂ max (congrArg₂ (· + ·) (Finset.sum_congr rfl fun j _ => ?_) rfl) rfl
  have el : lidx_main_v7 (ix2 n k) j = ix2 n j := funext fun a => Fin.ext (by
    match a with
    | ⟨0, _⟩ => rfl
    | ⟨1, _⟩ => rfl)
  have er : ridx_main_v7 (ix2 n k) j = ix2 j k := funext fun a => Fin.ext (by
    match a with
    | ⟨0, _⟩ => rfl
    | ⟨1, _⟩ => rfl)
  rw [el, er, hidden1_apply]

/-- THE RESULT'S ENTRY `n` is the network's output for the input's row `n`. -/
theorem result_apply (n : Fin 16384) :
    val_main_v12 (F := Ideal) x0 x1 x2 x3 x4 x5 x6 (ix2 n (0 : Fin 1))
      = mlpRow (fun q => x0 (ix2 n q)) (fun q i => x1 (ix2 q i)) (fun i j => x2 (ix2 i j)) (fun j => x3 (ix1 j))
          (fun j k => x4 (ix2 j k)) (fun k => x5 (ix1 k)) (fun k => x6 (ix2 k (0 : Fin 1))) := by
  rw [val_main_v12_apply]
  unfold mlpRow
  refine Finset.sum_congr rfl fun k _ => ?_
  have el : lidx_main_v12 (ix2 n (0 : Fin 1)) k = ix2 n k := funext fun a => Fin.ext (by
    match a with
    | ⟨0, _⟩ => rfl
    | ⟨1, _⟩ => rfl)
  have er : ridx_main_v12 (ix2 n (0 : Fin 1)) k = ix2 k (0 : Fin 1) := funext fun a => Fin.ext (by
    match a with
    | ⟨0, _⟩ => rfl
    | ⟨1, _⟩ => rfl)
  rw [el, er, hidden2_apply]

end Cert.ReferenceIdeal.Row

end
-- ==== Proof.ReferenceValue.lean ====
/-
  The reference's result as one array: the column of the network's outputs.
-/
import proofs.«155400_g9534827397533_cont_9to1c4b_304_24_alg».proof.Proof.ReferenceRow
import proofs.«155400_g9534827397533_cont_9to1c4b_304_24_alg».proof.Proof.Network

noncomputable section

namespace Cert.ReferenceIdeal.Net

open Idealize.ShloMosaic Idealize.ShloMosaic.ValueIdx Cert.ReferenceIdeal Cert.ReferenceIdeal.Read Cert.Mlp

/-- Entry `(n, 0)` of the reference's result is the network on row `n`, for every `n`: the result is the column of all
    outputs. -/
theorem result_eq (x0 : (⟨S16384x256, .f32⟩ : BufTy).Contents (Elt Ideal)) (x1 : (⟨S256x64, .f32⟩ : BufTy).Contents (Elt Ideal))
    (x2 : (⟨S64x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x1, .f32⟩ : BufTy).Contents (Elt Ideal)) :
    val_main_v12 (F := Ideal) x0 x1 x2 x3 x4 x5 x6 = netCol x0 x1 x2 x3 x4 x5 x6 := by
  funext i
  obtain ⟨n, u, rfl⟩ : ∃ (n : Fin 16384) (u : Fin 1), i = ix2 n u := ⟨i 0, i 1, eq_ix2 i⟩
  obtain rfl : u = 0 := Subsingleton.elim _ _
  exact Row.result_apply x0 x1 x2 x3 x4 x5 x6 n

end Cert.ReferenceIdeal.Net

end
-- ==== Proof.lean ====
/-
  The kernel and its reference compute the same network.

  Both programs take a batch of 16384 rows of 256 numbers through an embedding without bias, two biased layers
  and a last layer with one output, with `max(·, 0)` after each of the first three. The reference does it
  batch × units with plain matrix products; the kernel does it transposed, units × batch, four blocks of 4096
  rows at a time, with all weights read from one packed array the host assembles, writes one row of outputs
  and lets the host reshape it to a column. Over the extended reals each product of the kernel is the
  reference's with its two factors exchanged, and nothing else differs: entry `n` of both results is the
  network on row `n` of the input (Proof/MlpRow.lean, Proof/Network.lean). The kernel's side is read off its
  generated frame run (Proof/KernelRow.lean: the stored entry; Proof/KernelPack.lean: the packed weights;
  Proof/KernelValue.lean: blocks to array, then the reshape), the reference's off its generated run, operation by
  operation (Proof/ReferenceRow.lean, Proof/ReferenceValue.lean). The law used, commutativity of the product,
  holds at the infinities too, so the precondition is never opened. The three frames are the generated ones; the
  idealization rewrote nothing, so `preserves` has nothing to state.
-/
import proofs.«155400_g9534827397533_cont_9to1c4b_304_24_alg».proof.Defs
import proofs.«155400_g9534827397533_cont_9to1c4b_304_24_alg».proof.Proof.Gen.Kernel
import proofs.«155400_g9534827397533_cont_9to1c4b_304_24_alg».proof.Proof.Gen.Kernel.Skeleton
import proofs.«155400_g9534827397533_cont_9to1c4b_304_24_alg».proof.Proof.Gen.Kernel.Launch
import proofs.«155400_g9534827397533_cont_9to1c4b_304_24_alg».proof.Proof.Gen.Kernel.Points
import proofs.«155400_g9534827397533_cont_9to1c4b_304_24_alg».proof.Proof.Gen.Kernel.Frame
import proofs.«155400_g9534827397533_cont_9to1c4b_304_24_alg».proof.Proof.Gen.KernelIdeal
import proofs.«155400_g9534827397533_cont_9to1c4b_304_24_alg».proof.Proof.Gen.KernelIdeal.Skeleton
import proofs.«155400_g9534827397533_cont_9to1c4b_304_24_alg».proof.Proof.Gen.KernelIdeal.Launch
import proofs.«155400_g9534827397533_cont_9to1c4b_304_24_alg».proof.Proof.Gen.KernelIdeal.Points
import proofs.«155400_g9534827397533_cont_9to1c4b_304_24_alg».proof.Proof.Gen.KernelIdeal.Frame
import proofs.«155400_g9534827397533_cont_9to1c4b_304_24_alg».proof.Proof.Gen.ReferenceIdeal
import proofs.«155400_g9534827397533_cont_9to1c4b_304_24_alg».proof.Proof.Gen.Pre_finite_inputs
import proofs.«155400_g9534827397533_cont_9to1c4b_304_24_alg».proof.Proof.Gen.ReferenceIdeal.Run
import proofs.«155400_g9534827397533_cont_9to1c4b_304_24_alg».proof.Proof.Gen.ReferenceIdeal.Read
import proofs.«155400_g9534827397533_cont_9to1c4b_304_24_alg».proof.Proof.KernelValue
import proofs.«155400_g9534827397533_cont_9to1c4b_304_24_alg».proof.Proof.ReferenceValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both idealized programs end with the column of the network's
    outputs in their results. -/
theorem algebraic : Cert.algebraic_KernelIdeal_ReferenceIdeal := by
  intro m ρ m' ρ' _ hagree
  refine ⟨fun c => Cert.KernelIdeal.Net.colOf m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v12_eq _ _ _ _ _ _ _).trans (Cert.ReferenceIdeal.Net.result_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
